-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x128 : Shape := ⟨2, ![5000, 128]⟩
abbrev S5000x16 : Shape := ⟨2, ![5000, 16]⟩
abbrev S3300000x16 : Shape := ⟨2, ![3300000, 16]⟩
abbrev S100000x1 : Shape := ⟨2, ![100000, 1]⟩
abbrev S5000x1 : Shape := ⟨2, ![5000, 1]⟩
abbrev S1x16 : Shape := ⟨2, ![1, 16]⟩
abbrev S1x1 : Shape := ⟨2, ![1, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S100000x1, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x1, .f32⟩
  | .hbm, ⟨75, _⟩ => ⟨S3300000x1, .f32⟩
  | .hbm, ⟨76, _⟩ => ⟨S3300000x1, .f32⟩
  | .hbm, ⟨77, _⟩ => ⟨S_, .f32⟩
  | .hbm, ⟨78, _⟩ => ⟨S100000x1, .f32⟩
  | .hbm, ⟨79, _⟩ => ⟨S3300000x1, .i32⟩
  | .hbm, ⟨80, _⟩ => ⟨S100000x1, .f32⟩
  | .hbm, ⟨81, _⟩ => ⟨S100000x1, .f32⟩
  | .hbm, ⟨82, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16, .f32⟩
  | .local _ .vmem, ⟨8, _⟩ => ⟨S16x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S1, .f32⟩
  | .local _ .vmem, ⟨14, _⟩ => ⟨S5000x1, .f32⟩
  | .local _ .vmem, ⟨15, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S5000x16_S5000x16 : S5000x16.ShapeCasts S5000x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S5000x1_S5000x1 : S5000x1.ShapeCasts S5000x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x1_S5000x1_1_0_0_1_n_n_wf : DotDims.WF S5000x16 S16x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S100000x1.size a
  hwx2_0 : ∀ i : grid2.Coords, EltTy.bits .f32 = 32 ∨ (Rect.block (s := S100000x1) S5000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1.size a ≤ S1.size a
  hwx2_1 : ∀ i : grid2.Coords, EltTy.bits .f32 = 32 ∨ (Rect.block (s := S1) S1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x1, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x1, .f32⟩
  | .hbm, ⟨81, _⟩ => ⟨S3300000x1, .f32⟩
  | .hbm, ⟨82, _⟩ => ⟨S3300000x1, .f32⟩
  | .hbm, ⟨83, _⟩ => ⟨S_, .f32⟩
  | .hbm, ⟨84, _⟩ => ⟨S100000x1, .f32⟩
  | .hbm, ⟨85, _⟩ => ⟨S3300000x1, .i32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | .hbm, ⟨90, _⟩ => ⟨S100000x1, .f32⟩
  | .hbm, ⟨91, _⟩ => ⟨S100000x1, .f32⟩
  | .hbm, ⟨92, _⟩ => ⟨S_, .f32⟩
  | .hbm, ⟨93, _⟩ => ⟨S100000x1, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.NamedRun.lean ====
/-
  The idealized kernel's run with its result named. The program is nine segments: host operations, the first
  pallas_call, host operations, the second, host operations, the third, and one last reshape. The buffer contents at
  each boundary are a fold from the launch memory (`W0` … `W9`), and every weakly fair execution ends with every
  unscoped buffer at the last boundary's contents `W9`. Read at the result buffer this names the result; read at the
  six argument buffers it says they end as launched.
-/
import proofs.«100923_j82463372083418_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the six arguments as launched. -/
theorem run : θ_run defs (onTc (τ := τ) (main (F := F))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.Chain.lean ====
/-
  The graph convolution's host side, named once. From the edge list `e` (2 × 3200000 node numbers): the source and
  destination of every edge with one self loop per node appended (`src`, `dst`: 3300000 entries each), the degree of
  every node (a scatter-add of ones at the destinations), its inverse square root where the degree is positive and 0
  elsewhere (`invSqrtDeg`), and the edge weight `weight e = invSqrtDeg[src] · invSqrtDeg[dst]`. One propagation step
  (`spread16`, `spread1`: the same step on 16 columns and on 1; `spread16At`, `spread1At` take the three lists as given) gathers the node rows at the sources, scales each by
  its edge's weight and scatter-adds them at the destinations. The network is
      out = squash (spread1 (hidden (spread16 (x · W1)) b1 W2)) b2
  with `hidden a b w = max (a + b, 0) · w` and `squash a b = 1 / (1 + exp (−(a + b)))`, flattened to one axis.
  The reference program's result (its run's composed term) is `out` of the six launch arrays; the theorem at the end
  says so, by unfolding the names.
-/
import proofs.«100923_j82463372083418_1_alg».proof.Proof.RefRun

noncomputable section

namespace Cert.ReferenceIdeal.Chain

open Cert.ReferenceIdeal Cert.ReferenceIdeal.Gen Idealize.ShloMosaic Idealize.ShloMosaic.TcCoe Idealize.SL.Sem

variable {F : FTy → Type} [FloatOps F]

/-- The sources of the edges, then every node once (its self loop). -/
def src (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destinations of the edges, then every node once. -/
def dst (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node numbers as gather indices: a negative number counts from the end (100000 is added), and the list becomes a
    column. -/
def wrapped (r : (⟨S3300000, .i32⟩ : BufTy).Contents (Elt F)) : (⟨S3300000x1, .i32⟩ : BufTy).Contents (Elt F) :=
  broadcastInDim S3300000x1 ![0] bcast_S3300000_S3300000x1_0 (select (cmpi .slt r (broadcastInDim S3300000 ![] bcast_S_S3300000 (constantI S_ 32 0#32))) (addi r (broadcastInDim S3300000 ![] bcast_S_S3300000 (constantI S_ 32 100000#32))) r)

/-- Node numbers as scatter indices: the list as a column. -/
def column (r : (⟨S3300000, .i32⟩ : BufTy).Contents (Elt F)) : (⟨S3300000x1, .i32⟩ : BufTy).Contents (Elt F) :=
  broadcastInDim S3300000x1 ![0] bcast_S3300000_S3300000x1_0 r

/-- The number of list entries pointing at every node: a one added at each entry of `d`. -/
def degreeOf (d : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (column d) (broadcastInDim S3300000 ![] bcast_S_S3300000 (constant S_ .f32 0x3F800000#32))

/-- The degree of every node: a one added at each edge's destination. -/
def degree (e : (⟨S2x3200000, .i32⟩ : BufTy).Contents (Elt F)) : (⟨S100000, .f32⟩ : BufTy).Contents (Elt F) :=
  degreeOf (dst e)

/-- g^(−1/2) where `g` is positive, 0 elsewhere. -/
def invSqrtOf (g : (⟨S100000, .f32⟩ : BufTy).Contents (Elt F)) : (⟨S100000, .f32⟩ : BufTy).Contents (Elt F) :=
  select (cmpf (F := F) .ogt g (broadcastInDim S100000 ![] bcast_S_S100000 (constant S_ .f32 0x00000000#32))) (Host.powf g (broadcastInDim S100000 ![] bcast_S_S100000 (constant S_ .f32 0xBF000000#32))) (broadcastInDim S100000 ![] bcast_S_S100000 (id (constant S_ .f32 0x00000000#32)))

/-- degree^(−1/2) where the degree is positive, 0 elsewhere. -/
def invSqrtDeg (e : (⟨S2x3200000, .i32⟩ : BufTy).Contents (Elt F)) : (⟨S100000, .f32⟩ : BufTy).Contents (Elt F) :=
  invSqrtOf (degree e)

/-- From a value `v` per node: `v` at the source times `v` at the destination, per list entry. -/
def weightOf (v : (⟨S100000, .f32⟩ : BufTy).Contents (Elt F)) (s d : (⟨S3300000, .i32⟩ : BufTy).Contents (Elt F)) : (⟨S3300000, .f32⟩ : BufTy).Contents (Elt F) :=
  mulf (Host.gather gather_S100000_S3300000x1_S3300000_n_0_n_n_0_1_1 v (wrapped s)) (Host.gather gather_S100000_S3300000x1_S3300000_n_0_n_n_0_1_1 v (wrapped d))

/-- The weight of every edge: invSqrtDeg at its source times invSqrtDeg at its destination. -/
def weight (e : (⟨S2x3200000, .i32⟩ : BufTy).Contents (Elt F)) : (⟨S3300000, .f32⟩ : BufTy).Contents (Elt F) :=
  weightOf (invSqrtDeg e) (src e) (dst e)

/-- One propagation step on 16 columns, from the lists of sources `s`, destinations `d` and edge weights `w`: the rows
    of `h` at the sources, each scaled by its edge's weight, added up at the destinations. -/
def spread16At (s d : (⟨S3300000, .i32⟩ : BufTy).Contents (Elt F)) (w : (⟨S3300000, .f32⟩ : BufTy).Contents (Elt F))
    (h : (⟨S100000x16, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (column d) (mulf (Host.gather gather_S100000x16_S3300000x1_S3300000x16_1_0_n_n_0_1_116 h (wrapped s)) (broadcastInDim S3300000x16 ![0, 1] bcast_S3300000x1_S3300000x16_0_1 (broadcastInDim S3300000x1 ![0] bcast_S3300000_S3300000x1_0 w)))

/-- The same step on one column. -/
def spread1At (s d : (⟨S3300000, .i32⟩ : BufTy).Contents (Elt F)) (w : (⟨S3300000, .f32⟩ : BufTy).Contents (Elt F))
    (h : (⟨S100000x1, .f32⟩ : BufTy).Contents (Elt F)) : (⟨S100000x1, .f32⟩ : BufTy).Contents (Elt F) :=
  Host.scatterAdd scatter_S100000x1_S3300000x1_S3300000x1_1_0_0_1 (broadcastInDim S100000x1 ![] bcast_S_S100000x1 (constant S_ .f32 0x00000000#32)) (column d) (mulf (Host.gather gather_S100000x1_S3300000x1_S3300000x1_1_0_n_n_0_1_11 h (wrapped s)) (broadcastInDim S3300000x1 ![0] bcast_S3300000_S3300000x1_0 w))

/-- The step on 16 columns over the graph of the edge list `e`. -/
def spread16 (e : (⟨S2x3200000, .i32⟩ : BufTy).Contents (Elt F)) (h : (⟨S100000x16, .f32⟩ : BufTy).Contents (Elt F)) : (⟨S100000x16, .f32⟩ : BufTy).Contents (Elt F) :=
  spread16At (src e) (dst e) (weight e) h

/-- The step on one column over the graph of the edge list `e`. -/
def spread1 (e : (⟨S2x3200000, .i32⟩ : BufTy).Contents (Elt F)) (h : (⟨S100000x1, .f32⟩ : BufTy).Contents (Elt F)) : (⟨S100000x1, .f32⟩ : BufTy).Contents (Elt F) :=
  spread1At (src e) (dst e) (weight e) h

/-- The first layer's product `x · W1`. -/
def project (x : (⟨S100000x128, .f32⟩ : BufTy).Contents (Elt F)) (w : (⟨S128x16, .f32⟩ : BufTy).Contents (Elt F)) : (⟨S100000x16, .f32⟩ : BufTy).Contents (Elt F) :=
  Host.dotGeneral dot_S100000x128_S128x16_S100000x16_1_0_0_1_n_n none x w

/-- The hidden layer: `max (a + b, 0) · w`, the bias `b` added to every row. -/
def hidden (a : (⟨S100000x16, .f32⟩ : BufTy).Contents (Elt F)) (b : (⟨S16, .f32⟩ : BufTy).Contents (Elt F)) (w : (⟨S16x1, .f32⟩ : BufTy).Contents (Elt F)) : (⟨S100000x1, .f32⟩ : BufTy).Contents (Elt F) :=
  Host.dotGeneral dot_S100000x16_S16x1_S100000x1_1_0_0_1_n_n none (maximumf (addf a (broadcastInDim S100000x16 ![0, 1] bcast_S1x16_S100000x16_0_1 (broadcastInDim S1x16 ![1] bcast_S16_S1x16_1 b))) (broadcastInDim S100000x16 ![] bcast_S_S100000x16 (constant S_ .f32 0x00000000#32))) w

/-- The output layer: `1 / (1 + exp (−(a + b)))`, the bias `b` added to every row. -/
def squash (a : (⟨S100000x1, .f32⟩ : BufTy).Contents (Elt F)) (b : (⟨S1, .f32⟩ : BufTy).Contents (Elt F)) : (⟨S100000x1, .f32⟩ : BufTy).Contents (Elt F) :=
  Host.divf (broadcastInDim S100000x1 ![] bcast_S_S100000x1 (constant S_ .f32 0x3F800000#32)) (addf (broadcastInDim S100000x1 ![] bcast_S_S100000x1 (constant S_ .f32 0x3F800000#32)) (Host.exp (Host.negf (addf a (broadcastInDim S100000x1 ![0, 1] bcast_S1x1_S100000x1_0_1 (broadcastInDim S1x1 ![1] bcast_S1_S1x1_1 b))))))

/-- The network, from the six arrays. -/
def out (x : (⟨S100000x128, .f32⟩ : BufTy).Contents (Elt F)) (e : (⟨S2x3200000, .i32⟩ : BufTy).Contents (Elt F))
    (w1 : (⟨S128x16, .f32⟩ : BufTy).Contents (Elt F)) (b1 : (⟨S16, .f32⟩ : BufTy).Contents (Elt F))
    (w2 : (⟨S16x1, .f32⟩ : BufTy).Contents (Elt F)) (b2 : (⟨S1, .f32⟩ : BufTy).Contents (Elt F)) : (⟨S100000, .f32⟩ : BufTy).Contents (Elt F) :=
  shapeCast _ (squash (spread1 e (hidden (spread16 e (project x w1)) b1 w2)) b2) shapeCasts_S100000x1_S100000

set_option maxRecDepth 8192 in
/-- The reference's result is the network of its six launch arrays. -/
theorem result_eq (m : (ℓ : Loc nD τ sig) → Buf (Elt F) ℓ) (c : Dev nD) :
    Cert.ReferenceIdeal.ValueP.res_main_v71 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v71 out squash spread1 spread1At hidden spread16 spread16At project weight weightOf invSqrtDeg invSqrtOf degree degreeOf column wrapped src dst
  rfl

end Cert.ReferenceIdeal.Chain

end
-- ==== Proof.RowProduct.lean ====
/-
  The first pallas_call. Its grid has 20 points; point `t` loads rows 5000·t … 5000·t + 4999 of `x` (all 128
  columns) and the whole of `W1`, multiplies them into a zero accumulator, and writes the 5000 × 16 product back as
  rows 5000·t … of the output. At the ideal values a change of float format is the identity and the product into a zero
  accumulator is the plain sum over the 128 contracted entries; element (r, c) of block `t` is therefore
  ∑ₖ x[5000·t + r, k] · W1[k, c], which is element (5000·t + r, c) of the host's whole product `x · W1`. The 20 row
  blocks tile the 100000 rows, so after the region the output array IS the host's `dot_general` of the two arrays the
  region found at its inputs.
-/
import proofs.«100923_j82463372083418_1_alg».proof.Proof.Gen.KernelIdeal.Frame
import proofs.«100923_j82463372083418_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RowProduct

open Cert.KernelIdeal Cert.KernelIdeal.Gen Idealize.ShloMosaic Idealize.ShloMosaic.TcCoe Idealize.SL.Sem
open Idealize.ShloMosaic.Pipeline (Dat)

/-- The host's record of the whole product [100000,128] · [128,16]. -/
abbrev wholeDot := Cert.ReferenceIdeal.dot_S100000x128_S128x16_S100000x16_1_0_0_1_n_n
/-- The kernel's record of one block's product [5000,128] · [128,16]. -/
abbrev blockDot := Cert.KernelIdeal.dot_S5000x128_S128x16_S5000x16_1_0_0_1_n_n

/-- The host's whole product of two arrays, as index functions at the ideal values. -/
abbrev product (X : FVec Ideal S100000x128 .f32) (W : FVec Ideal S128x16 .f32) : FVec Ideal S100000x16 .f32 :=
  Host.dotGeneral (F := Ideal) wholeDot none X W

/-! ## The host's product at an index -/

/-- Entry (i₀, k) of the left operand. -/
abbrev wl (i : S100000x16.Idx) (k : Fin 128) : S100000x128.Idx := fun a => match a with
  | ⟨0, _⟩ => ⟨(i 0).val, (i 0).isLt⟩
  | ⟨1, _⟩ => ⟨k.val, k.isLt⟩
/-- Entry (k, i₁) of the right operand. -/
abbrev wr (i : S100000x16.Idx) (k : Fin 128) : S128x16.Idx := fun a => match a with
  | ⟨0, _⟩ => ⟨k.val, k.isLt⟩
  | ⟨1, _⟩ => ⟨(i 1).val, (i 1).isLt⟩

theorem wholeDot_lhs0 (i : S100000x16.Idx) (q : wholeDot.contr.Idx) : (wholeDot.lhsIdx i q 0).val = (i 0).val := by
  unfold DotDims.lhsIdx
  rw [dif_neg (show ¬(0 : Fin S100000x128.rank) ∈ wholeDot.lhsBatch by decide), dif_pos (show (0 : Fin S100000x128.rank) ∈ wholeDot.lhsNonContracting by decide)]
  rfl
theorem wholeDot_rhs1 (i : S100000x16.Idx) (q : wholeDot.contr.Idx) : (wholeDot.rhsIdx i q 1).val = (i 1).val := by
  unfold DotDims.rhsIdx
  rw [dif_neg (show ¬(1 : Fin S128x16.rank) ∈ wholeDot.rhsBatch by decide), dif_pos (show (1 : Fin S128x16.rank) ∈ wholeDot.rhsNonContracting by decide)]
  rfl

/-- The host's `dot_general` at the ideal values: element `i` is the sum over the contracted axis. -/
theorem whole_apply (X : FVec Ideal S100000x128 .f32) (W : FVec Ideal S128x16 .f32) (i : S100000x16.Idx) :
    Host.dotGeneral wholeDot none X W i = ∑ k : Fin 128, X (wl i k) * W (wr i k) := by
  simp only [Host.dotGeneral]
  rw [Ideal.dotGeneral_apply, ← Equiv.sum_comp (ValueIdx.contrEquiv1 wholeDot 128 rfl rfl).symm]
  refine Finset.sum_congr rfl fun k _ => ?_
  have hk := ValueIdx.contrEquiv1_symm_val wholeDot 128 rfl rfl k
  have el : wholeDot.lhsIdx i ((ValueIdx.contrEquiv1 wholeDot 128 rfl rfl).symm k) = wl i k := funext fun a => Fin.ext (by
    match a with
    | ⟨0, _⟩ => exact wholeDot_lhs0 _ _
    | ⟨1, _⟩ => exact (wholeDot.lhsIdx_val_of_single rfl i _).trans hk)
  have er : wholeDot.rhsIdx i ((ValueIdx.contrEquiv1 wholeDot 128 rfl rfl).symm k) = wr i k := funext fun a => Fin.ext (by
    match a with
    | ⟨0, _⟩ => exact (wholeDot.rhsIdx_val_of_single rfl i _).trans hk
    | ⟨1, _⟩ => exact wholeDot_rhs1 _ _)
  rw [el, er]

/-! ## One block's product at an index -/

abbrev bl (j : S5000x16.Idx) (k : Fin 128) : S5000x128.Idx := fun a => match a with
  | ⟨0, _⟩ => ⟨(j 0).val, (j 0).isLt⟩
  | ⟨1, _⟩ => ⟨k.val, k.isLt⟩
abbrev br (j : S5000x16.Idx) (k : Fin 128) : S128x16.Idx := fun a => match a with
  | ⟨0, _⟩ => ⟨k.val, k.isLt⟩
  | ⟨1, _⟩ => ⟨(j 1).val, (j 1).isLt⟩

theorem blockDot_lhs0 (j : S5000x16.Idx) (q : blockDot.contr.Idx) : (blockDot.lhsIdx j q 0).val = (j 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem blockDot_rhs1 (j : S5000x16.Idx) (q : blockDot.contr.Idx) : (blockDot.rhsIdx j q 1).val = (j 1).val := by
  unfold DotDims.rhsIdx
  rw [dif_neg (show ¬(1 : Fin S128x16.rank) ∈ blockDot.rhsBatch by decide), dif_pos (show (1 : Fin S128x16.rank) ∈ blockDot.rhsNonContracting by decide)]
  rfl

/-- The body's stored value at the ideal values: the two roundings are the identity and the accumulator is zero, so
    element `j` is the sum over the contracted axis of the loaded blocks. -/
theorem block_apply (x0 : Vec Ideal S5000x128 .f32) (x1 : Vec Ideal S128x16 .f32) (j : S5000x16.Idx) :
    k0_pay1 (F := Ideal) x0 x1 j = ∑ k : Fin 128, x0 (bl j k) * x1 (br j k) := by
  unfold k0_pay1
  simp only [matmul]
  rw [Ideal.matmul_constant_zero_apply, ← Equiv.sum_comp (ValueIdx.contrEquiv1 blockDot 128 rfl rfl).symm]
  refine Finset.sum_congr rfl fun k _ => ?_
  have hk := ValueIdx.contrEquiv1_symm_val blockDot 128 rfl rfl k
  have el : blockDot.lhsIdx j ((ValueIdx.contrEquiv1 blockDot 128 rfl rfl).symm k) = bl j k := funext fun a => Fin.ext (by
    match a with
    | ⟨0, _⟩ => exact blockDot_lhs0 _ _
    | ⟨1, _⟩ => exact (blockDot.lhsIdx_val_of_single rfl j _).trans hk)
  have er : blockDot.rhsIdx j ((ValueIdx.contrEquiv1 blockDot 128 rfl rfl).symm k) = br j k := funext fun a => Fin.ext (by
    match a with
    | ⟨0, _⟩ => exact (blockDot.rhsIdx_val_of_single rfl j _).trans hk
    | ⟨1, _⟩ => exact blockDot_rhs1 _ _)
  rw [el, er]
  rfl

/-! ## From the blocks to the array -/

variable (V : (c : Dev nD) → (b : Ref sig .tc) → Buf (Elt Ideal) ((c : Thread nD τ).loc b))

theorem origin2 : (![0, 0] : Fin 2 → Nat) = fun _ => 0 := funext fun a => by fin_cases a <;> rfl

/-- The three index maps over the grid: the row block of `x` and of the output is the point's number, every other block
    index is zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the host's whole product of the arrays at the region's inputs. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x16) origin2]
  obtain ⟨e0, e1, e2, e3, e4, e5⟩ := index_maps t
  funext j
  show k0_pay1 (F := Ideal) (iblk0 V c 0 t) (iblk0 V c 1 t) j = Host.dotGeneral (F := Ideal) wholeDot none (V c main_arg0) (V c main_arg2) (((cfg0.win 2).blk t).view.emb j)
  refine (block_apply _ _ j).trans ?_
  refine Eq.trans ?_ (whole_apply _ _ _).symm
  refine Finset.sum_congr rfl fun k _ => ?_
  have h0 : iblk0 V c 0 t (bl j k) = V c main_arg0 (wl (((cfg0.win 2).blk t).view.emb j) k) := by
    show V c main_arg0 (((cfg0.win 0).blk t).view.emb (bl j k)) = V c main_arg0 (wl (((cfg0.win 2).blk t).view.emb j) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (br j k) = V c main_arg2 (wr (((cfg0.win 2).blk t).view.emb j) k) := by
    show V c main_arg2 (((cfg0.win 1).blk t).view.emb (br j k)) = V c main_arg2 (wr (((cfg0.win 2).blk t).view.emb j) k)
    refine congrArg _ (funext fun a => Fin.ext ?_)
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  rw [h0, h1]

/-- An index of the output array is in point `t`'s block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- Row `r` lies in the block of point `r / 5000`: the 20 row blocks tile the array. -/
theorem tiled (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have ht : (i 0).val / 5000 < cfg0.N := by show (i 0).val / 5000 < 20; omega
  refine ⟨⟨(i 0).val / 5000, ht⟩, flush0_2 _, ?_⟩
  obtain ⟨e0, e1, e2, e3, e4, e5⟩ := index_maps ⟨(i 0).val / 5000, ht⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 16 ≤ (i 1).val ∧ (i 1).val < win0_2.index ⟨(i 0).val / 5000, ht⟩ (1 : Fin 2) * 16 + 16
    rw [e5]; omega

/-- After the region the output array is the host's whole product of the arrays the region found at its inputs. -/
theorem array_eq (c : Dev nD) :
    (dat0 V c).arrAt 2 cfg0.N = product (V c main_arg0) (V c main_arg2) :=
  (dat0 V c).arrAt_eq_of_cover 2 _ (fun t _ => flushed_eq V c t) tiled

end Cert.KernelIdeal.RowProduct

end
-- ==== Proof.HiddenLayer.lean ====
/-
  The second pallas_call. Point `t` of its 20 loads rows 5000·t … of the aggregated features (16 columns), the 16
  biases and the 16 × 1 weights; it adds the bias to every row, takes the maximum with 0, and multiplies by the weights
  into a zero accumulator. At the ideal values the rounding before the product is the identity, so element (r, 0) of
  block `t` is ∑ₖ max (a[5000·t + r, k] + b[k], 0) · w[k, 0]: element (5000·t + r, 0) of the host's
  `max (a + b, 0) · w` on the whole arrays. The 20 row blocks tile the output.
-/
import proofs.«100923_j82463372083418_1_alg».proof.Proof.Gen.KernelIdeal.Frame
import proofs.«100923_j82463372083418_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HiddenLayer

open Cert.KernelIdeal Cert.KernelIdeal.Gen Idealize.ShloMosaic Idealize.ShloMosaic.TcCoe Idealize.SL.Sem
open Idealize.ShloMosaic.Pipeline (Dat)
open Idealize.ShloMosaic.ValueIdx

/-- The host's record of the whole product [100000,16] · [16,1]. -/
abbrev wholeDot := Cert.ReferenceIdeal.dot_S100000x16_S16x1_S100000x1_1_0_0_1_n_n
/-- The kernel's record of one block's product [5000,16] · [16,1]. -/
abbrev blockDot := Cert.KernelIdeal.dot_S5000x16_S16x1_S5000x1_1_0_0_1_n_n

/-- One entry before the product: the bias added, the negative part dropped. -/
abbrev rectified (a b : Ideal .f32) : Ideal .f32 := FloatOps.maximumf (FloatOps.addf a b) (FloatOps.ofBits .f32 0x00000000#32)

/-- The host's hidden layer on whole arrays: `max (a + b, 0) · w`, the bias broadcast to every row. -/
abbrev hidden (A : FVec Ideal S100000x16 .f32) (b : FVec Ideal S16 .f32) (W : FVec Ideal S16x1 .f32) : FVec Ideal S100000x1 .f32 :=
  Host.dotGeneral (F := Ideal) wholeDot none
    (maximumf (addf A (broadcastInDim S100000x16 ![0, 1] Cert.ReferenceIdeal.Gen.bcast_S1x16_S100000x16_0_1 (broadcastInDim S1x16 ![1] Cert.ReferenceIdeal.Gen.bcast_S16_S1x16_1 b)))
      (broadcastInDim S100000x16 ![] Cert.ReferenceIdeal.Gen.bcast_S_S100000x16 (constant (F := Ideal) S_ .f32 0x00000000#32))) W

/-! ## The host's layer at an index -/

theorem wholeDot_lhs0 (i : S100000x1.Idx) (q : wholeDot.contr.Idx) : (wholeDot.lhsIdx i q 0).val = (i 0).val := by
  unfold DotDims.lhsIdx
  rw [dif_neg (show ¬(0 : Fin S100000x16.rank) ∈ wholeDot.lhsBatch by decide), dif_pos (show (0 : Fin S100000x16.rank) ∈ wholeDot.lhsNonContracting by decide)]
  rfl
theorem wholeDot_rhs1 (i : S100000x1.Idx) (q : wholeDot.contr.Idx) : (wholeDot.rhsIdx i q 1).val = (i 1).val := by
  unfold DotDims.rhsIdx
  rw [dif_neg (show ¬(1 : Fin S16x1.rank) ∈ wholeDot.rhsBatch by decide), dif_pos (show (1 : Fin S16x1.rank) ∈ wholeDot.rhsNonContracting by decide)]
  rfl

/-- The bias, broadcast by the host to one row and then to every row, read at (p, k) is `b[k]`. -/
theorem bias_rows (b : FVec Ideal S16 .f32) (p : Fin 100000) (k : Fin 16) :
    broadcastInDim S100000x16 ![0, 1] Cert.ReferenceIdeal.Gen.bcast_S1x16_S100000x16_0_1 (broadcastInDim S1x16 ![1] Cert.ReferenceIdeal.Gen.bcast_S16_S1x16_1 b) (ix2 p k) = b (ix1 k) := by
  refine (broadcastInDim_apply _ _ _ (ix2 p k) (ix2 (0 : Fin 1) k) fun a => ?_).trans ?_
  · match a with
    | ⟨0, _⟩ => rfl
    | ⟨1, _⟩ => rfl
  · refine broadcastInDim_apply _ _ _ (ix2 (0 : Fin 1) k) (ix1 k) fun a => ?_
    match a with
    | ⟨0, _⟩ => rfl

/-- Element (p, q) of the host's layer: the sum over the 16 hidden columns. -/
theorem whole_apply (A : FVec Ideal S100000x16 .f32) (b : FVec Ideal S16 .f32) (W : FVec Ideal S16x1 .f32) (p : Fin 100000) (q : Fin 1) :
    hidden A b W (ix2 p q) = ∑ k : Fin 16, rectified (A (ix2 p k)) (b (ix1 k)) * W (ix2 k q) := by
  simp only [hidden, Host.dotGeneral]
  rw [Ideal.dotGeneral_apply, ← Equiv.sum_comp (ValueIdx.contrEquiv1 wholeDot 16 rfl rfl).symm]
  refine Finset.sum_congr rfl fun k _ => ?_
  have hk := ValueIdx.contrEquiv1_symm_val wholeDot 16 rfl rfl k
  have el : wholeDot.lhsIdx (ix2 p q) ((ValueIdx.contrEquiv1 wholeDot 16 rfl rfl).symm k) = ix2 p k := funext fun a => Fin.ext (by
    match a with
    | ⟨0, _⟩ => exact wholeDot_lhs0 _ _
    | ⟨1, _⟩ => exact (wholeDot.lhsIdx_val_of_single rfl (ix2 p q) _).trans hk)
  have er : wholeDot.rhsIdx (ix2 p q) ((ValueIdx.contrEquiv1 wholeDot 16 rfl rfl).symm k) = ix2 k q := funext fun a => Fin.ext (by
    match a with
    | ⟨0, _⟩ => exact (wholeDot.rhsIdx_val_of_single rfl (ix2 p q) _).trans hk
    | ⟨1, _⟩ => exact wholeDot_rhs1 _ _)
  rw [el, er]
  refine congrArg (· * W (ix2 k q)) ?_
  show rectified (A (ix2 p k)) (broadcastInDim S100000x16 ![0, 1] Cert.ReferenceIdeal.Gen.bcast_S1x16_S100000x16_0_1 (broadcastInDim S1x16 ![1] Cert.ReferenceIdeal.Gen.bcast_S16_S1x16_1 b) (ix2 p k)) = _
  rw [bias_rows]

/-! ## One block's value at an index -/

theorem blockDot_lhs0 (j : S5000x1.Idx) (q : blockDot.contr.Idx) : (blockDot.lhsIdx j q 0).val = (j 0).val := by
  unfold DotDims.lhsIdx
  rw [dif_neg (show ¬(0 : Fin S5000x16.rank) ∈ blockDot.lhsBatch by decide), dif_pos (show (0 : Fin S5000x16.rank) ∈ blockDot.lhsNonContracting by decide)]
  rfl
theorem blockDot_rhs1 (j : S5000x1.Idx) (q : blockDot.contr.Idx) : (blockDot.rhsIdx j q 1).val = (j 1).val := by
  unfold DotDims.rhsIdx
  rw [dif_neg (show ¬(1 : Fin S16x1.rank) ∈ blockDot.rhsBatch by decide), dif_pos (show (1 : Fin S16x1.rank) ∈ blockDot.rhsNonContracting by decide)]
  rfl

/-- The bias vector, cast to one row and broadcast over the block's rows, read at (r, k) is `b[k]`. -/
theorem bias_block (v2 : Vec Ideal S16 .f32) (r : Fin 5000) (k : Fin 16) :
    broadcastTo S5000x16 (shapeCast S1x16 v2 shapeCasts_S16_S1x16) broadcasts_S1x16_S5000x16 (ix2 r k) = v2 (ix1 k) :=
  (ValueIdx.broadcastTo_1b_ab_apply _ _ r k).trans (ValueIdx.shapeCast_a_1a_apply _ _ 0 k)

/-- Element (r, q) of the body's stored value at the ideal values. -/
theorem block_apply (v0 : Vec Ideal S5000x16 .f32) (v2 : Vec Ideal S16 .f32) (v9 : Vec Ideal S16x1 .f32) (r : Fin 5000) (q : Fin 1) :
    k1_pay1 (F := Ideal) v0 v2 v9 (ix2 r q) = ∑ k : Fin 16, rectified (v0 (ix2 r k)) (v2 (ix1 k)) * v9 (ix2 k q) := by
  unfold k1_pay1
  simp only [matmul]
  rw [Ideal.matmul_constant_zero_apply, ← Equiv.sum_comp (ValueIdx.contrEquiv1 blockDot 16 rfl rfl).symm]
  refine Finset.sum_congr rfl fun k _ => ?_
  have hk := ValueIdx.contrEquiv1_symm_val blockDot 16 rfl rfl k
  have el : blockDot.lhsIdx (ix2 r q) ((ValueIdx.contrEquiv1 blockDot 16 rfl rfl).symm k) = ix2 r k := funext fun a => Fin.ext (by
    match a with
    | ⟨0, _⟩ => exact blockDot_lhs0 _ _
    | ⟨1, _⟩ => exact (blockDot.lhsIdx_val_of_single rfl (ix2 r q) _).trans hk)
  have er : blockDot.rhsIdx (ix2 r q) ((ValueIdx.contrEquiv1 blockDot 16 rfl rfl).symm k) = ix2 k q := funext fun a => Fin.ext (by
    match a with
    | ⟨0, _⟩ => exact (blockDot.rhsIdx_val_of_single rfl (ix2 r q) _).trans hk
    | ⟨1, _⟩ => exact blockDot_rhs1 _ _)
  rw [el, er]
  refine congrArg (· * v9 (ix2 k q)) ?_
  show rectified (shapeCast S5000x16 v0 shapeCasts_S5000x16_S5000x16 (ix2 r k)) (broadcastTo S5000x16 (shapeCast S1x16 v2 shapeCasts_S16_S1x16) broadcasts_S1x16_S5000x16 (ix2 r k)) = _
  rw [bias_block, shapeCast_self]

/-! ## From the blocks to the array -/

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The four index maps over the grid: the row block of the features and of the output is the point's number, every
    other block index is zero. -/
theorem index_maps : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the host's layer on the arrays at the region's inputs. -/
theorem flushed_eq (c : Dev nD) (t : Fin cfg1.N) :
    (dat1 V c).flushed 3 t = ((cfg1.win 3).blk t).view.read (Elt Ideal) (hidden (V c main_v44) (V c main_arg3) (V c main_arg4)) := by
  show (cfg1.win 3).cut (grid1.coords t) ((dat1 V c).after 3 t) = _
  rw [after1_3]
  unfold out1_3
  rw [View.canon_unit_zero origin2]
  simp only [View.ld_unit_zero (S := S5000x16) origin2, View.ld_unit_zero (S := S16) origin1, View.ld_unit_zero (S := S16x1) origin2]
  obtain ⟨e0, e1, e2, e3, e4, e5, e6⟩ := index_maps t
  funext j
  have hj0 : (j 0).val < 5000 := (j 0).isLt
  have hj1 : (j 1).val < 1 := (j 1).isLt
  have hp : win1_3.index t (0 : Fin 2) * 5000 + 1 * (j 0).val < 100000 := by
    have := t.isLt; have hN : cfg1.N = 20 := rfl; rw [e5]; omega
  have hrow : (((cfg1.win 3).blk t).view.emb j) = ix2 (n0 := 100000) (n1 := 1) ⟨win1_3.index t (0 : Fin 2) * 5000 + 1 * (j 0).val, hp⟩ ⟨(j 1).val, hj1⟩ := by
    funext a; apply Fin.ext
    match a with
    | ⟨0, _⟩ => rfl
    | ⟨1, _⟩ => show win1_3.index t (1 : Fin 2) * 1 + 1 * (j 1).val = (j 1).val; omega
  show k1_pay1 (F := Ideal) (iblk1 V c 0 t) (iblk1 V c 1 t) (iblk1 V c 2 t) ((cfg1.win 3).xinj (grid1.coords t) j) = hidden (V c main_v44) (V c main_arg3) (V c main_arg4) (((cfg1.win 3).blk t).view.emb j)
  rw [hrow]
  have hblk : (cfg1.win 3).xinj (grid1.coords t) j = ix2 (n0 := 5000) (n1 := 1) ⟨(j 0).val, hj0⟩ ⟨(j 1).val, hj1⟩ := by
    funext a; apply Fin.ext
    match a with
    | ⟨0, _⟩ => rfl
    | ⟨1, _⟩ => rfl
  rw [hblk]
  refine (block_apply _ _ _ _ _).trans ?_
  refine Eq.trans ?_ (whole_apply _ _ _ _ _).symm
  refine Finset.sum_congr rfl fun k _ => ?_
  have h0 : iblk1 V c 0 t (ix2 (n0 := 5000) (n1 := 16) ⟨(j 0).val, hj0⟩ k) = V c main_v44 (ix2 (n0 := 100000) (n1 := 16) ⟨win1_3.index t (0 : Fin 2) * 5000 + 1 * (j 0).val, hp⟩ k) := by
    show V c main_v44 (((cfg1.win 0).blk t).view.emb (ix2 (n0 := 5000) (n1 := 16) ⟨(j 0).val, hj0⟩ k)) = _
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 16 + 1 * k.val = k.val; omega
  have h1 : iblk1 V c 1 t (ix1 k) = V c main_arg3 (ix1 k) := by
    show V c main_arg3 (((cfg1.win 1).blk t).view.emb (ix1 k)) = _
    refine congrArg _ (funext fun a => Fin.ext ?_)
    match a with
    | ⟨0, _⟩ => show win1_1.index t (0 : Fin 1) * 16 + 1 * k.val = k.val; omega
  have h2 : iblk1 V c 2 t (ix2 (n0 := 16) (n1 := 1) k ⟨(j 1).val, hj1⟩) = V c main_arg4 (ix2 (n0 := 16) (n1 := 1) k ⟨(j 1).val, hj1⟩) := by
    show V c main_arg4 (((cfg1.win 2).blk t).view.emb (ix2 (n0 := 16) (n1 := 1) k ⟨(j 1).val, hj1⟩)) = _
    refine congrArg _ (funext fun a => Fin.ext ?_)
    match a with
    | ⟨0, _⟩ => show win1_2.index t (0 : Fin 2) * 16 + 1 * k.val = k.val; omega
    | ⟨1, _⟩ => show win1_2.index t (1 : Fin 2) * 1 + 1 * (j 1).val = (j 1).val; omega
  rw [h0, h1, h2]

/-- An index of the output array is in point `t`'s block iff each coordinate is in the block's range on its axis. -/
theorem mem_block (t : Fin cfg1.N) (i : S100000x1.Idx) :
    i ∈ ((cfg1.win 3).blk t).view.set ↔ ∀ a : Fin 2, win1_3.index t a * S5000x1.size a ≤ (i a).val ∧ (i a).val < win1_3.index t a * S5000x1.size a + S5000x1.size a := by
  show i ∈ ((View.whole main_v45).slice (win1_3.rect t)).set ↔ _
  rw [View.set_slice_whole, Rect.mem_set_unit]
  exact Iff.rfl

/-- Row `r` lies in the block of point `r / 5000`. -/
theorem tiled (i : S100000x1.Idx) : ∃ t : Fin cfg1.N, (cfg1.win 3).flush t = true ∧ i ∈ ((cfg1.win 3).blk t).view.set := by
  have hi0 : (i 0).val < 100000 := (i 0).isLt
  have hi1 : (i 1).val < 1 := (i 1).isLt
  have ht : (i 0).val / 5000 < cfg1.N := by show (i 0).val / 5000 < 20; omega
  refine ⟨⟨(i 0).val / 5000, ht⟩, flush1_3 _, ?_⟩
  obtain ⟨e0, e1, e2, e3, e4, e5, e6⟩ := index_maps ⟨(i 0).val / 5000, ht⟩
  rw [mem_block]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win1_3.index ⟨(i 0).val / 5000, ht⟩ (1 : Fin 2) * 1 ≤ (i 1).val ∧ (i 1).val < win1_3.index ⟨(i 0).val / 5000, ht⟩ (1 : Fin 2) * 1 + 1
    rw [e6]; omega

/-- After the region the output array is the host's hidden layer of the arrays the region found at its inputs. -/
theorem array_eq (c : Dev nD) :
    (dat1 V c).arrAt 3 cfg1.N = hidden (V c main_v44) (V c main_arg3) (V c main_arg4) :=
  (dat1 V c).arrAt_eq_of_cover 3 _ (fun t _ => flushed_eq V c t) tiled

end Cert.KernelIdeal.HiddenLayer

end
-- ==== Proof.Squash.lean ====
/-
  The third pallas_call. Point `t` of its 20 loads rows 5000·t … of the aggregated column and the one bias, adds
  the bias to every row and applies the logistic function; element (r, 0) of block `t` is logistic (a[5000·t + r, 0] +
  b[0]). The host spells the same function out as 1 / (1 + exp (−(a + b))) with the constant 1 read from its bit
  pattern; on the extended reals that is the logistic function by definition (the pattern 0x3F800000 is the real 1).
  The 20 row blocks tile the output.
-/
import proofs.«100923_j82463372083418_1_alg».proof.Proof.Gen.KernelIdeal.Frame
import proofs.«100923_j82463372083418_1_alg».proof.Proof.Gen.ReferenceIdeal
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Squash

open Cert.KernelIdeal Cert.KernelIdeal.Gen Idealize.ShloMosaic Idealize.ShloMosaic.TcCoe Idealize.SL.Sem
open Idealize.ShloMosaic.Pipeline (Dat)
open Idealize.ShloMosaic.ValueIdx

/-- The host's output layer on whole arrays: `1 / (1 + exp (−(a + b)))`, the bias broadcast to every row. -/
abbrev squash (a : FVec Ideal S100000x1 .f32) (b : FVec Ideal S1 .f32) : FVec Ideal S100000x1 .f32 :=
  Host.divf (broadcastInDim S100000x1 ![] Cert.ReferenceIdeal.Gen.bcast_S_S100000x1 (constant (F := Ideal) S_ .f32 0x3F800000#32))
    (addf (broadcastInDim S100000x1 ![] Cert.ReferenceIdeal.Gen.bcast_S_S100000x1 (constant (F := Ideal) S_ .f32 0x3F800000#32))
      (Host.exp (Host.negf (addf a (broadcastInDim S100000x1 ![0, 1] Cert.ReferenceIdeal.Gen.bcast_S1x1_S100000x1_0_1 (broadcastInDim S1x1 ![1] Cert.ReferenceIdeal.Gen.bcast_S1_S1x1_1 b))))))

/-- The bias, broadcast by the host to one row and then to every row, read at (p, q) is `b[q]` (q = 0). -/
theorem bias_rows (b : FVec Ideal S1 .f32) (p : Fin 100000) (q : Fin 1) :
    broadcastInDim S100000x1 ![0, 1] Cert.ReferenceIdeal.Gen.bcast_S1x1_S100000x1_0_1 (broadcastInDim S1x1 ![1] Cert.ReferenceIdeal.Gen.bcast_S1_S1x1_1 b) (ix2 p q) = b (ix1 q) := by
  have hq : q.val = 0 := by have := q.isLt; omega
  refine (broadcastInDim_apply _ _ _ (ix2 p q) (ix2 (0 : Fin 1) q) fun a => ?_).trans ?_
  · match a with
    | ⟨0, _⟩ => rfl
    | ⟨1, _⟩ => exact hq
  · refine broadcastInDim_apply _ _ _ (ix2 (0 : Fin 1) q) (ix1 q) fun a => ?_
    match a with
    | ⟨0, _⟩ => exact hq

/-- Element (p, q) of the host's output layer is the logistic function of the biased entry. -/
theorem whole_apply (a : FVec Ideal S100000x1 .f32) (b : FVec Ideal S1 .f32) (p : Fin 100000) (q : Fin 1) :
    squash a b (ix2 p q) = Ideal.logistic (a (ix2 p q) + b (ix1 q)) := by
  show Ideal.div (Ideal.ofBits .f32 0x3F800000#32) (Ideal.ofBits .f32 0x3F800000#32 + Ideal.exp (-(a (ix2 p q) + broadcastInDim S100000x1 ![0, 1] Cert.ReferenceIdeal.Gen.bcast_S1x1_S100000x1_0_1 (broadcastInDim S1x1 ![1] Cert.ReferenceIdeal.Gen.bcast_S1_S1x1_1 b) (ix2 p q)))) = _
  rw [Ideal.ofBits_one_f32, bias_rows]
  rfl

/-- The bias vector, cast to one row and broadcast over the block's rows, read at (r, q) is `b[q]`. -/
theorem bias_block (v2 : Vec Ideal S1 .f32) (r : Fin 5000) (q : Fin 1) :
    broadcastTo S5000x1 (shapeCast S1x1 v2 shapeCasts_S1_S1x1) broadcasts_S1x1_S5000x1 (ix2 r q) = v2 (ix1 q) :=
  (ValueIdx.broadcastTo_1b_ab_apply _ _ r q).trans (ValueIdx.shapeCast_a_1a_apply _ _ 0 q)

/-- Element (r, q) of the body's stored value at the ideal values. -/
theorem block_apply (v0 : Vec Ideal S5000x1 .f32) (v2 : Vec Ideal S1 .f32) (r : Fin 5000) (q : Fin 1) :
    k2_pay1 (F := Ideal) v0 v2 (ix2 r q) = Ideal.logistic (v0 (ix2 r q) + v2 (ix1 q)) := by
  unfold k2_pay1
  show Ideal.logistic (shapeCast S5000x1 v0 shapeCasts_S5000x1_S5000x1 (ix2 r q) + broadcastTo S5000x1 (shapeCast S1x1 v2 shapeCasts_S1_S1x1) broadcasts_S1x1_S5000x1 (ix2 r q)) = _
  rw [bias_block, shapeCast_self]

/-! ## From the blocks to the array -/

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The three index maps over the grid: the row block of the input and of the output is the point's number, every
    other block index is zero. -/
theorem index_maps : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point `t` writes back is block `t` of the host's output layer on the arrays at the region's inputs. -/
theorem flushed_eq (c : Dev nD) (t : Fin cfg2.N) :
    (dat2 V c).flushed 2 t = ((cfg2.win 2).blk t).view.read (Elt Ideal) (squash (V c main_v57) (V c main_arg5)) := by
  show (cfg2.win 2).cut (grid2.coords t) ((dat2 V c).after 2 t) = _
  rw [after2_2]
  unfold out2_2
  rw [View.canon_unit_zero origin2]
  simp only [View.ld_unit_zero (S := S5000x1) origin2, View.ld_unit_zero (S := S1) origin1]
  obtain ⟨e0, e1, e2, e3, e4⟩ := index_maps t
  funext j
  have hj0 : (j 0).val < 5000 := (j 0).isLt
  have hj1 : (j 1).val < 1 := (j 1).isLt
  have hp : win2_2.index t (0 : Fin 2) * 5000 + 1 * (j 0).val < 100000 := by
    have := t.isLt; have hN : cfg2.N = 20 := rfl; rw [e3]; omega
  have hrow : (((cfg2.win 2).blk t).view.emb j) = ix2 (n0 := 100000) (n1 := 1) ⟨win2_2.index t (0 : Fin 2) * 5000 + 1 * (j 0).val, hp⟩ ⟨(j 1).val, hj1⟩ := by
    funext a; apply Fin.ext
    match a with
    | ⟨0, _⟩ => rfl
    | ⟨1, _⟩ => show win2_2.index t (1 : Fin 2) * 1 + 1 * (j 1).val = (j 1).val; omega
  show k2_pay1 (F := Ideal) (iblk2 V c 0 t) (iblk2 V c 1 t) ((cfg2.win 2).xinj (grid2.coords t) j) = squash (V c main_v57) (V c main_arg5) (((cfg2.win 2).blk t).view.emb j)
  rw [hrow]
  have hblk : (cfg2.win 2).xinj (grid2.coords t) j = ix2 (n0 := 5000) (n1 := 1) ⟨(j 0).val, hj0⟩ ⟨(j 1).val, hj1⟩ := by
    funext a; apply Fin.ext
    match a with
    | ⟨0, _⟩ => rfl
    | ⟨1, _⟩ => rfl
  rw [hblk]
  refine (block_apply _ _ _ _).trans ?_
  refine Eq.trans ?_ (whole_apply _ _ _ _).symm
  have h0 : iblk2 V c 0 t (ix2 (n0 := 5000) (n1 := 1) ⟨(j 0).val, hj0⟩ ⟨(j 1).val, hj1⟩) = V c main_v57 (ix2 (n0 := 100000) (n1 := 1) ⟨win2_2.index t (0 : Fin 2) * 5000 + 1 * (j 0).val, hp⟩ ⟨(j 1).val, hj1⟩) := by
    show V c main_v57 (((cfg2.win 0).blk t).view.emb (ix2 (n0 := 5000) (n1 := 1) ⟨(j 0).val, hj0⟩ ⟨(j 1).val, hj1⟩)) = _
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 1 + 1 * (j 1).val = (j 1).val; omega
  have h1 : iblk2 V c 1 t (ix1 (⟨(j 1).val, hj1⟩ : Fin 1)) = V c main_arg5 (ix1 (⟨(j 1).val, hj1⟩ : Fin 1)) := by
    show V c main_arg5 (((cfg2.win 1).blk t).view.emb (ix1 (⟨(j 1).val, hj1⟩ : Fin 1))) = _
    refine congrArg _ (funext fun a => Fin.ext ?_)
    match a with
    | ⟨0, _⟩ => show win2_1.index t (0 : Fin 1) * 1 + 1 * (j 1).val = (j 1).val; omega
  rw [h0, h1]

/-- An index of the output array is in point `t`'s block iff each coordinate is in the block's range on its axis. -/
theorem mem_block (t : Fin cfg2.N) (i : S100000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v58).slice (win2_2.rect t)).set ↔ _
  rw [View.set_slice_whole, Rect.mem_set_unit]
  exact Iff.rfl

/-- Row `r` lies in the block of point `r / 5000`. -/
theorem tiled (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  have ht : (i 0).val / 5000 < cfg2.N := by show (i 0).val / 5000 < 20; omega
  refine ⟨⟨(i 0).val / 5000, ht⟩, flush2_2 _, ?_⟩
  obtain ⟨e0, e1, e2, e3, e4⟩ := index_maps ⟨(i 0).val / 5000, ht⟩
  rw [mem_block]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e3]; show (i 0).val / 5000 * 5000 ≤ (i 0).val ∧ (i 0).val < (i 0).val / 5000 * 5000 + 5000; omega
  | ⟨1, _⟩ =>
    show win2_2.index ⟨(i 0).val / 5000, ht⟩ (1 : Fin 2) * 1 ≤ (i 1).val ∧ (i 1).val < win2_2.index ⟨(i 0).val / 5000, ht⟩ (1 : Fin 2) * 1 + 1
    rw [e4]; omega

/-- After the region the output array is the host's output layer of the arrays the region found at its inputs. -/
theorem array_eq (c : Dev nD) :
    (dat2 V c).arrAt 2 cfg2.N = squash (V c main_v57) (V c main_arg5) :=
  (dat2 V c).arrAt_eq_of_cover 2 _ (fun t _ => flushed_eq V c t) tiled

end Cert.KernelIdeal.Squash

end
-- ==== Proof.Walk.lean ====
/-
  The idealized kernel's result, read back through its nine segments. Write `M a` for the launch contents of argument
  `a`. The host operations before the first pallas_call leave the source and destination lists and the edge weights of
  the graph of `M arg1` in three buffers, and touch no argument. The first pallas_call leaves `x · W1` (the module
  RowProduct); the host operations after it propagate that over the graph; the second pallas_call applies the hidden
  layer (HiddenLayer); the host operations after it propagate again; the third applies the output layer (Squash); the
  last host operation flattens the column. No host stretch and no pallas_call writes the three graph buffers or an
  argument after they are first set, so every later segment finds them as the first stretch left them. Composed, the
  result buffer ends at the network `out` of the six launch arrays: the same function the reference computes.
-/
import proofs.«100923_j82463372083418_1_alg».proof.Proof.RowProduct
import proofs.«100923_j82463372083418_1_alg».proof.Proof.HiddenLayer
import proofs.«100923_j82463372083418_1_alg».proof.Proof.Squash
import proofs.«100923_j82463372083418_1_alg».proof.Proof.Chain
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo
open Cert.ReferenceIdeal.Chain

variable (m : (ℓ : Loc nD τ sig) → Buf (Elt Ideal) ℓ) (ρ : Dev nD → PrngReg) (c : Dev nD)

/-! ## Before the first pallas_call: the graph's three lists, the arguments untouched -/

theorem entry_src : W3 m ρ c (Proc.devRef .tc main_v3) = src (F := Ideal) (m ((c : Thread nD τ).loc main_arg1)) := by
  dsimp only [W3, W2, W1, W0, hostOps0, hostOps0_1, hostOps0_2]
  after_results_simp
  rfl

theorem entry_dst : W3 m ρ c (Proc.devRef .tc main_v6) = dst (F := Ideal) (m ((c : Thread nD τ).loc main_arg1)) := by
  dsimp only [W3, W2, W1, W0, hostOps0, hostOps0_1, hostOps0_2]
  after_results_simp
  rfl

/-- The last stretch before the first pallas_call, from any contents `X`: the edge weights from the per-node value and
    the two lists it finds. -/
theorem weights_stretch (X : Valuation τ sig (Elt Ideal)) :
    after hostOps0_2 X (Proc.devRef .tc main_v30)
      = weightOf (F := Ideal) (X (Proc.devRef .tc main_v15)) (X (Proc.devRef .tc main_v3)) (X (Proc.devRef .tc main_v6)) := by
  dsimp only [hostOps0_2]
  after_results_simp
  rfl

/-- The stretch before it (the select between the power and 0), from any contents `X`. -/
theorem select_stretch (X : Valuation τ sig (Elt Ideal)) :
    after hostOps0_1 X (Proc.devRef .tc main_v15)
      = select (X (Proc.devRef .tc main_v12)) (X (Proc.devRef .tc main_v14))
          (broadcastInDim S100000 ![] bcast_S_S100000 (id (X (Proc.devRef .tc main_cst_3)))) := by
  dsimp only [hostOps0_1]
  after_results_simp
  rfl
theorem select_stretch_src (X : Valuation τ sig (Elt Ideal)) : after hostOps0_1 X (Proc.devRef .tc main_v3) = X (Proc.devRef .tc main_v3) := by
  dsimp only [hostOps0_1]
  after_results_simp
theorem select_stretch_dst (X : Valuation τ sig (Elt Ideal)) : after hostOps0_1 X (Proc.devRef .tc main_v6) = X (Proc.devRef .tc main_v6) := by
  dsimp only [hostOps0_1]
  after_results_simp

/-- The first stretch: the degree compared with 0, its power −1/2, the constant 0, and the two lists. -/
theorem first_positive : W1 m ρ c (Proc.devRef .tc main_v12)
    = cmpf (F := Ideal) .ogt (degree (F := Ideal) (m ((c : Thread nD τ).loc main_arg1))) (broadcastInDim S100000 ![] bcast_S_S100000 (constant (F := Ideal) S_ .f32 0x00000000#32)) := by
  dsimp only [W1, W0, hostOps0]
  after_results_simp
  unfold degree degreeOf column dst
  rfl
theorem first_power : W1 m ρ c (Proc.devRef .tc main_v14)
    = Host.powf (F := Ideal) (degree (F := Ideal) (m ((c : Thread nD τ).loc main_arg1))) (broadcastInDim S100000 ![] bcast_S_S100000 (constant (F := Ideal) S_ .f32 0xBF000000#32)) := by
  dsimp only [W1, W0, hostOps0]
  after_results_simp
  unfold degree degreeOf column dst
  rfl
theorem first_zero : W1 m ρ c (Proc.devRef .tc main_cst_3) = constant (F := Ideal) S_ .f32 0x00000000#32 := by
  dsimp only [W1, W0, hostOps0]
  after_results_simp
theorem first_src : W1 m ρ c (Proc.devRef .tc main_v3) = src (F := Ideal) (m ((c : Thread nD τ).loc main_arg1)) := by
  dsimp only [W1, W0, hostOps0]
  after_results_simp
  rfl
theorem first_dst : W1 m ρ c (Proc.devRef .tc main_v6) = dst (F := Ideal) (m ((c : Thread nD τ).loc main_arg1)) := by
  dsimp only [W1, W0, hostOps0]
  after_results_simp
  rfl

theorem entry_weight : W3 m ρ c (Proc.devRef .tc main_v30) = weight (F := Ideal) (m ((c : Thread nD τ).loc main_arg1)) := by
  show after hostOps0_2 (after hostOps0_1 (W1 m ρ c)) (Proc.devRef .tc main_v30) = _
  rw [weights_stretch, select_stretch, select_stretch_src, select_stretch_dst, first_positive, first_power, first_zero, first_src, first_dst]
  rfl

theorem entry_arg0 : W3 m ρ c (Proc.devRef .tc main_arg0) = m ((c : Thread nD τ).loc main_arg0) := by
  dsimp only [W3, W2, W1, W0, hostOps0, hostOps0_1, hostOps0_2]
  after_results_simp
theorem entry_arg2 : W3 m ρ c (Proc.devRef .tc main_arg2) = m ((c : Thread nD τ).loc main_arg2) := by
  dsimp only [W3, W2, W1, W0, hostOps0, hostOps0_1, hostOps0_2]
  after_results_simp
theorem entry_arg3 : W3 m ρ c (Proc.devRef .tc main_arg3) = m ((c : Thread nD τ).loc main_arg3) := by
  dsimp only [W3, W2, W1, W0, hostOps0, hostOps0_1, hostOps0_2]
  after_results_simp
theorem entry_arg4 : W3 m ρ c (Proc.devRef .tc main_arg4) = m ((c : Thread nD τ).loc main_arg4) := by
  dsimp only [W3, W2, W1, W0, hostOps0, hostOps0_1, hostOps0_2]
  after_results_simp
theorem entry_arg5 : W3 m ρ c (Proc.devRef .tc main_arg5) = m ((c : Thread nD τ).loc main_arg5) := by
  dsimp only [W3, W2, W1, W0, hostOps0, hostOps0_1, hostOps0_2]
  after_results_simp

/-! ## The first pallas_call and the propagation after it -/

/-- The first pallas_call's output array after it. -/
theorem after_first : W4 m ρ c (Proc.devRef .tc main_v31)
    = project (F := Ideal) (m ((c : Thread nD τ).loc main_arg0)) (m ((c : Thread nD τ).loc main_arg2)) := by
  refine ((W4_arr m ρ c 2).trans (Cert.KernelIdeal.RowProduct.array_eq (V3 m ρ) c)).trans ?_
  show Cert.KernelIdeal.RowProduct.product (W3 m ρ c (Proc.devRef .tc main_arg0)) (W3 m ρ c (Proc.devRef .tc main_arg2)) = _
  rw [entry_arg0, entry_arg2]
  rfl

/-- The aggregated features the second pallas_call finds. -/
theorem second_input : W5 m ρ c (Proc.devRef .tc main_v44)
    = spread16At (F := Ideal) (W4 m ρ c (Proc.devRef .tc main_v3)) (W4 m ρ c (Proc.devRef .tc main_v6)) (W4 m ρ c (Proc.devRef .tc main_v30)) (W4 m ρ c (Proc.devRef .tc main_v31)) := by
  dsimp only [W5, hostOps1]
  after_results_simp
  rfl

theorem second_src : W5 m ρ c (Proc.devRef .tc main_v3) = W3 m ρ c (Proc.devRef .tc main_v3) := by
  refine Eq.trans ?_ (W4_of_ne m ρ c main_v3 (by decide))
  dsimp only [W5, hostOps1]
  after_results_simp
theorem second_dst : W5 m ρ c (Proc.devRef .tc main_v6) = W3 m ρ c (Proc.devRef .tc main_v6) := by
  refine Eq.trans ?_ (W4_of_ne m ρ c main_v6 (by decide))
  dsimp only [W5, hostOps1]
  after_results_simp
theorem second_weight : W5 m ρ c (Proc.devRef .tc main_v30) = W3 m ρ c (Proc.devRef .tc main_v30) := by
  refine Eq.trans ?_ (W4_of_ne m ρ c main_v30 (by decide))
  dsimp only [W5, hostOps1]
  after_results_simp
theorem second_arg3 : W5 m ρ c (Proc.devRef .tc main_arg3) = W3 m ρ c (Proc.devRef .tc main_arg3) := by
  refine Eq.trans ?_ (W4_of_ne m ρ c main_arg3 (by decide))
  dsimp only [W5, hostOps1]
  after_results_simp
theorem second_arg4 : W5 m ρ c (Proc.devRef .tc main_arg4) = W3 m ρ c (Proc.devRef .tc main_arg4) := by
  refine Eq.trans ?_ (W4_of_ne m ρ c main_arg4 (by decide))
  dsimp only [W5, hostOps1]
  after_results_simp
theorem second_arg5 : W5 m ρ c (Proc.devRef .tc main_arg5) = W3 m ρ c (Proc.devRef .tc main_arg5) := by
  refine Eq.trans ?_ (W4_of_ne m ρ c main_arg5 (by decide))
  dsimp only [W5, hostOps1]
  after_results_simp

/-- The second pallas_call's input, as a function of the launch arrays. -/
theorem second_input_eq : W5 m ρ c (Proc.devRef .tc main_v44)
    = spread16 (F := Ideal) (m ((c : Thread nD τ).loc main_arg1)) (project (m ((c : Thread nD τ).loc main_arg0)) (m ((c : Thread nD τ).loc main_arg2))) := by
  rw [second_input, W4_of_ne m ρ c main_v3 (by decide), W4_of_ne m ρ c main_v6 (by decide), W4_of_ne m ρ c main_v30 (by decide),
    entry_src, entry_dst, entry_weight, after_first]
  rfl

/-! ## The second pallas_call and the propagation after it -/

theorem after_second : W6 m ρ c (Proc.devRef .tc main_v45)
    = hidden (F := Ideal) (spread16 (m ((c : Thread nD τ).loc main_arg1)) (project (m ((c : Thread nD τ).loc main_arg0)) (m ((c : Thread nD τ).loc main_arg2))))
        (m ((c : Thread nD τ).loc main_arg3)) (m ((c : Thread nD τ).loc main_arg4)) := by
  refine ((W6_arr m ρ c 3).trans (Cert.KernelIdeal.HiddenLayer.array_eq (V5 m ρ) c)).trans ?_
  show Cert.KernelIdeal.HiddenLayer.hidden (W5 m ρ c (Proc.devRef .tc main_v44)) (W5 m ρ c (Proc.devRef .tc main_arg3)) (W5 m ρ c (Proc.devRef .tc main_arg4)) = _
  rw [second_input_eq, second_arg3, second_arg4, entry_arg3, entry_arg4]
  rfl

theorem third_input : W7 m ρ c (Proc.devRef .tc main_v57)
    = spread1At (F := Ideal) (W6 m ρ c (Proc.devRef .tc main_v3)) (W6 m ρ c (Proc.devRef .tc main_v6)) (W6 m ρ c (Proc.devRef .tc main_v30)) (W6 m ρ c (Proc.devRef .tc main_v45)) := by
  dsimp only [W7, hostOps2]
  after_results_simp
  rfl

theorem third_arg5 : W7 m ρ c (Proc.devRef .tc main_arg5) = W5 m ρ c (Proc.devRef .tc main_arg5) := by
  refine Eq.trans ?_ (W6_of_ne m ρ c main_arg5 (by decide))
  dsimp only [W7, hostOps2]
  after_results_simp

theorem third_input_eq : W7 m ρ c (Proc.devRef .tc main_v57)
    = spread1 (F := Ideal) (m ((c : Thread nD τ).loc main_arg1))
        (hidden (spread16 (m ((c : Thread nD τ).loc main_arg1)) (project (m ((c : Thread nD τ).loc main_arg0)) (m ((c : Thread nD τ).loc main_arg2))))
          (m ((c : Thread nD τ).loc main_arg3)) (m ((c : Thread nD τ).loc main_arg4))) := by
  rw [third_input, W6_of_ne m ρ c main_v3 (by decide), W6_of_ne m ρ c main_v6 (by decide), W6_of_ne m ρ c main_v30 (by decide),
    second_src, second_dst, second_weight, entry_src, entry_dst, entry_weight, after_second]
  rfl

/-! ## The third pallas_call and the last reshape -/

theorem after_third : W8 m ρ c (Proc.devRef .tc main_v58)
    = squash (F := Ideal) (spread1 (m ((c : Thread nD τ).loc main_arg1))
        (hidden (spread16 (m ((c : Thread nD τ).loc main_arg1)) (project (m ((c : Thread nD τ).loc main_arg0)) (m ((c : Thread nD τ).loc main_arg2))))
          (m ((c : Thread nD τ).loc main_arg3)) (m ((c : Thread nD τ).loc main_arg4)))) (m ((c : Thread nD τ).loc main_arg5)) := by
  refine ((W8_arr m ρ c 2).trans (Cert.KernelIdeal.Squash.array_eq (V7 m ρ) c)).trans ?_
  show Cert.KernelIdeal.Squash.squash (W7 m ρ c (Proc.devRef .tc main_v57)) (W7 m ρ c (Proc.devRef .tc main_arg5)) = _
  rw [third_input_eq, third_arg5, second_arg5, entry_arg5]
  rfl

/-- The result buffer after the run: the network of the six launch arrays. -/
theorem result : W9 m ρ c (Proc.devRef .tc main_v59)
    = out (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have h : W9 m ρ c (Proc.devRef .tc main_v59) = shapeCast _ (W8 m ρ c (Proc.devRef .tc main_v58)) shapeCasts_S100000x1_S100000 := by
    dsimp only [W9, hostOps3]
    after_results_simp
    rfl
  rw [h, after_third]
  rfl

end Cert.KernelIdeal.Walk

end
-- ==== Proof.lean ====
/-
  A two-layer graph convolution on 100000 nodes and 3200000 edges (plus one self loop per node):
      out = sigmoid (Â · max (Â · (x · W1) + b1, 0) · W2 + b2),
  where Â scales the message along every edge by deg^(−1/2) at its source and at its destination and adds the messages
  up at the destination. The kernel program computes the three dense stages — `x · W1`, `max (· + b1, 0) · W2` and
  `sigmoid (· + b2)` — in three pallas_calls over 20 blocks of 5000 rows each, and everything about the graph (degrees,
  weights, gathers, scatter-adds) with the same host operations the reference uses. On the extended reals each
  pallas_call's output array is the host's corresponding operation on the arrays it is given: a product of row blocks
  into a zero accumulator is the rows of the whole product (Proof/RowProduct.lean, Proof/HiddenLayer.lean; the
  roundings to a shorter format before the products are the identity), and the logistic function is
  1 / (1 + exp (−·)) by definition (Proof/Squash.lean). Reading the kernel's result back through its host stretches
  (Proof/Walk.lean, over the run of Proof/NamedRun.lean) gives the network `out` of the six launch arrays
  (Proof/Chain.lean), which is also the composed term of the reference's run (Proof/RefRun.lean). No algebraic law
  beyond the definitions is used, so the finiteness of the inputs is never opened.
  The idealization rewrote nothing, so `preserves` is `True`; the three frames are the generated frames and the
  reference's run with its result dropped.
-/
import proofs.«100923_j82463372083418_1_alg».proof.Defs
import proofs.«100923_j82463372083418_1_alg».proof.Proof.Gen.Kernel
import proofs.«100923_j82463372083418_1_alg».proof.Proof.Gen.Kernel.Skeleton
import proofs.«100923_j82463372083418_1_alg».proof.Proof.Gen.Kernel.Launch
import proofs.«100923_j82463372083418_1_alg».proof.Proof.Gen.Kernel.Points
import proofs.«100923_j82463372083418_1_alg».proof.Proof.Gen.Kernel.Frame
import proofs.«100923_j82463372083418_1_alg».proof.Proof.Gen.KernelIdeal
import proofs.«100923_j82463372083418_1_alg».proof.Proof.Gen.KernelIdeal.Skeleton
import proofs.«100923_j82463372083418_1_alg».proof.Proof.Gen.KernelIdeal.Launch
import proofs.«100923_j82463372083418_1_alg».proof.Proof.Gen.KernelIdeal.Points
import proofs.«100923_j82463372083418_1_alg».proof.Proof.Gen.KernelIdeal.Frame
import proofs.«100923_j82463372083418_1_alg».proof.Proof.Gen.ReferenceIdeal
import proofs.«100923_j82463372083418_1_alg».proof.Proof.Gen.Pre_finite_inputs
import proofs.«100923_j82463372083418_1_alg».proof.Proof.RefRun
import proofs.«100923_j82463372083418_1_alg».proof.Proof.NamedRun
import proofs.«100923_j82463372083418_1_alg».proof.Proof.Chain
import proofs.«100923_j82463372083418_1_alg».proof.Proof.Walk
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network of the (agreeing) launch arrays in their result buffers. -/
theorem algebraic : Cert.algebraic_KernelIdeal_ReferenceIdeal := by
  intro m ρ m' ρ' _ hagree
  refine ⟨fun c => Cert.ReferenceIdeal.Chain.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    have e := hagree c
    rw [Cert.ReferenceIdeal.Chain.result_eq, e.1, e.2.1, e.2.2.1, e.2.2.2.1, e.2.2.2.2.1, e.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
